-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_wm1" .f32 0x39000400#32 ((1 / 8191 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x64 : Shape := ⟨3, ![128, 8192, 64]⟩
abbrev S_ : Shape := ⟨0, ![]⟩

class Facts : Prop where
  bcast_S_S128x8192x64 : S_.BroadcastsInDim S128x8192x64 (![] : Fin 0 → Fin S128x8192x64.rank)
  reducesTo_S128x8192x64_S_d0_1_2 : S128x8192x64.ReducesTo [0, 1, 2] S_
  h_S_ : 0 < S_.numel

variable [Facts]

def fn {F : FTy → Type} [FloatOps F] (main_arg0 : FVec F S128x8192x64 .f32) : IVec S_ 1 :=
  let main_v0 : FVec F S128x8192x64 .f32 := Host.absf main_arg0
  let main_cst : FVec F S_ .f32 := constant S_ .f32 0x7F800000#32
  let main_v1 : FVec F S128x8192x64 .f32 := broadcastInDim S128x8192x64 ![] bcast_S_S128x8192x64 main_cst
  let main_v2 : IVec S128x8192x64 1 := cmpf .olt main_v0 main_v1
  let main_c : IVec S_ 1 := constantI S_ 1 1#1
  let main_v3 : IVec S_ 1 := (fun x v => Host.reduce IntOp.andi x v reducesTo_S128x8192x64_S_d0_1_2 h_S_) main_v2 main_c
  main_v3
-- ==== Kernel.lean ====
abbrev S128x8192x64 : Shape := ⟨3, ![128, 8192, 64]⟩
abbrev S128x64 : Shape := ⟨2, ![128, 64]⟩
abbrev S8x8192x64 : Shape := ⟨3, ![8, 8192, 64]⟩
abbrev S8x64 : Shape := ⟨2, ![8, 64]⟩
abbrev S64x64 : Shape := ⟨2, ![64, 64]⟩
abbrev S1x8192x64 : Shape := ⟨3, ![1, 8192, 64]⟩
abbrev S8192x64 : Shape := ⟨2, ![8192, 64]⟩
abbrev S64 : Shape := ⟨1, ![64]⟩
abbrev S1x64 : Shape := ⟨2, ![1, 64]⟩
abbrev S64x1 : Shape := ⟨2, ![64, 1]⟩

abbrev nBuf : Space → Nat
  | .hbm => 2
  | .vmem => 3
  | .smem => 0
  | _ => 0

abbrev bufTy : (tb : Table) → Fin (tcTables nBuf tb) → BufTy
  | .hbm, ⟨0, _⟩ => ⟨S128x8192x64, .f32⟩
  | .hbm, ⟨1, _⟩ => ⟨S128x64, .f32⟩
  | .local _ .vmem, ⟨0, _⟩ => ⟨S8x8192x64, .f32⟩
  | .local _ .vmem, ⟨1, _⟩ => ⟨S8x64, .f32⟩
  | .local _ .vmem, ⟨2, _⟩ => ⟨S8x64, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v6 : Index := Scalar.indexCast arg3
  let c0 : Index := 0#32
  let c0_1 : Index := 0#32
  ![v6.toNat, 0, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let v38 : Index := Scalar.indexCast arg3
  let c0_10 : Index := 0#32
  ![v38.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S64x64_d0_w32 : S64x64.Iotas .tc 32 [0]
  iota_S64x64_d1_w32 : S64x64.Iotas .tc 32 [1]
  natLt_1_32 : 1 < 32
  h_S1x8192x64 : 0 < S1x8192x64.numel
  shapeCasts_S1x8192x64_S8192x64 : S1x8192x64.ShapeCasts S8192x64
  reduces_S8192x64_S64 : S8192x64.Reduces [0] S64
  shapeCasts_S64_S1x64 : S64.ShapeCasts S1x64
  broadcasts_S1x64_S8192x64 : S1x64.Broadcasts S8192x64
  bitsLt_bf16_f32 : FTy.bits .bf16 < FTy.bits .f32
  reduces_S64x64_S64 : S64x64.Reduces [1] S64
  shapeCasts_S64_S64x1 : S64.ShapeCasts S64x1
  broadcasts_S64x1_S64x64 : S64x1.Broadcasts S64x64
  broadcasts_S1x64_S64x64 : S1x64.Broadcasts S64x64
  h_S1x64 : 0 < S1x64.numel
  shapeCasts_S1x64_S64 : S1x64.ShapeCasts S64
  dot_S8192x64_S8192x64_S64x64_0_0_1_1_n_n_wf : DotDims.WF S8192x64 S8192x64 S64x64 [0] [0] [1] [1] [] []
  hrank0 : 0 < grid0.rank
  k0_t1_ok : k0_t1_loop.OK
  k0_off1_inb : ∀ k0_t1 : Fin k0_t1_loop.trips, ∀ a, (k0_off1 k0_t1) a + S1x8192x64.size a ≤ S8x8192x64.size a
  k0_off2_inb : ∀ k0_t1 : Fin k0_t1_loop.trips, ∀ a, (k0_off2 k0_t1) a + S1x64.size a ≤ S8x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192x64.size a ≤ S128x8192x64.size a
  hwx0_0 : ∀ i : grid0.Coords, EltTy.bits .f32 = 32 ∨ (Rect.block (s := S128x8192x64) S8x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S128x64.size a
  hwx0_1 : ∀ i : grid0.Coords, EltTy.bits .f32 = 32 ∨ (Rect.block (s := S128x64) S8x64.size (cc0_transform_1 i) (hinb0_1 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

abbrev win0_0 : Pipeline.Window sig grid0 :=
  Pipeline.Window.ofSpec (Memref.whole main_arg0) S8x8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x8192x64 : Shape := ⟨3, ![128, 8192, 64]⟩
abbrev S_ : Shape := ⟨0, ![]⟩
abbrev S128x64 : Shape := ⟨2, ![128, 64]⟩
abbrev S128x1x64 : Shape := ⟨3, ![128, 1, 64]⟩
abbrev S128x64x64 : Shape := ⟨3, ![128, 64, 64]⟩
abbrev S64 : Shape := ⟨1, ![64]⟩
abbrev S64x1 : Shape := ⟨2, ![64, 1]⟩
abbrev S64x2 : Shape := ⟨2, ![64, 2]⟩
abbrev S128x64x1 : Shape := ⟨3, ![128, 64, 1]⟩

abbrev nBuf : Space → Nat
  | .hbm => 53
  | .vmem => 0
  | .smem => 0
  | _ => 0

abbrev bufTy : (tb : Table) → Fin (tcTables nBuf tb) → BufTy
  | .hbm, ⟨0, _⟩ => ⟨S128x8192x64, .f32⟩
  | .hbm, ⟨1, _⟩ => ⟨S_, .f32⟩
  | .hbm, ⟨2, _⟩ => ⟨S128x64, .f32⟩
  | .hbm, ⟨3, _⟩ => ⟨S128x1x64, .f32⟩
  | .hbm, ⟨4, _⟩ => ⟨S_, .f32⟩
  | .hbm, ⟨5, _⟩ => ⟨S128x1x64, .f32⟩
  | .hbm, ⟨6, _⟩ => ⟨S128x1x64, .f32⟩
  | .hbm, ⟨7, _⟩ => ⟨S128x8192x64, .f32⟩
  | .hbm, ⟨8, _⟩ => ⟨S128x8192x64, .f32⟩
  | .hbm, ⟨9, _⟩ => ⟨S128x64x64, .f32⟩
  | .hbm, ⟨10, _⟩ => ⟨S_, .f32⟩
  | .hbm, ⟨11, _⟩ => ⟨S128x64x64, .f32⟩
  | .hbm, ⟨12, _⟩ => ⟨S128x64x64, .f32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64x1, .i32⟩
  | .hbm, ⟨31, _⟩ => ⟨S64x2, .i32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | .hbm, ⟨37, _⟩ => ⟨S128x64x1, .f32⟩
  | .hbm, ⟨38, _⟩ => ⟨S128x1x64, .f32⟩
  | .hbm, ⟨39, _⟩ => ⟨S128x64x64, .f32⟩
  | .hbm, ⟨40, _⟩ => ⟨S128x64x64, .f32⟩
  | .hbm, ⟨41, _⟩ => ⟨S128x64x64, .f32⟩
  | .hbm, ⟨42, _⟩ => ⟨S128x64x64, .f32⟩
  | .hbm, ⟨43, _⟩ => ⟨S128x64x64, .f32⟩
  | .hbm, ⟨44, _⟩ => ⟨S_, .f32⟩
  | .hbm, ⟨45, _⟩ => ⟨S128x64x64, .f32⟩
  | .hbm, ⟨46, _⟩ => ⟨S128x64x64, .i1⟩
  | .hbm, ⟨47, _⟩ => ⟨S128x64x64, .f32⟩
  | .hbm, ⟨48, _⟩ => ⟨S_, .f32⟩
  | .hbm, ⟨49, _⟩ => ⟨S128x64, .f32⟩
  | .hbm, ⟨50, _⟩ => ⟨S_, .f32⟩
  | .hbm, ⟨51, _⟩ => ⟨S128x64, .f32⟩
  | .hbm, ⟨52, _⟩ => ⟨S128x64, .f32⟩
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_c : Ref sig .tc := ⟨.hbm, 15, rfl⟩
abbrev main_call0_v2 : Ref sig .tc := ⟨.hbm, 16, rfl⟩
abbrev main_call0_v3 : Ref sig .tc := ⟨.hbm, 17, rfl⟩
abbrev main_call0_c_0 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_v7 : Ref sig .tc := ⟨.hbm, 23, rfl⟩
abbrev main_call0_v8 : Ref sig .tc := ⟨.hbm, 24, rfl⟩
abbrev main_call0_c_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  reducesTo_S128x8192x64_S128x64_d1 : S128x8192x64.ReducesTo [1] S128x64
  h_S_ : 0 < S_.numel
  bcast_S128x64_S128x1x64_0_2 : S128x64.BroadcastsInDim S128x1x64 (![0, 2] : Fin 2 → Fin S128x1x64.rank)
  bcast_S_S128x1x64 : S_.BroadcastsInDim S128x1x64 (![] : Fin 0 → Fin S128x1x64.rank)
  bcast_S128x1x64_S128x8192x64_0_1_2 : S128x1x64.BroadcastsInDim S128x8192x64 (![0, 1, 2] : Fin 3 → Fin S128x8192x64.rank)
  bcast_S_S128x64x64 : S_.BroadcastsInDim S128x64x64 (![] : Fin 0 → Fin S128x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  bcast_S128x64x1_S128x64x64_0_1_2 : S128x64x1.BroadcastsInDim S128x64x64 (![0, 1, 2] : Fin 3 → Fin S128x64x64.rank)
  bcast_S128x1x64_S128x64x64_0_1_2 : S128x1x64.BroadcastsInDim S128x64x64 (![0, 1, 2] : Fin 3 → Fin S128x64x64.rank)
  reducesTo_S128x64x64_S128x64_d2 : S128x64x64.ReducesTo [2] S128x64
  dot_S128x8192x64_S128x8192x64_S128x64x64_1_1_2_2_0_0_wf : DotDims.WF S128x8192x64 S128x8192x64 S128x64x64 [1] [1] [2] [2] [0] [0]
  gather_S128x64x64_S64x2_S128x64_0_12_n_n_12_1_12811_wf : GatherDims.WF S128x64x64 S64x2 S128x64 [0] [1, 2] [] [1, 2] [] 1 ![128, 1, 1]

variable [Facts₀]

def dot_S128x8192x64_S128x8192x64_S128x64x64_1_1_2_2_0_0 : DotDims S128x8192x64 S128x8192x64 S128x64x64 where
  lhsContracting := [1]
  rhsContracting := [1]
  lhsNonContracting := [2]
  rhsNonContracting := [2]
  lhsBatch := [0]
  rhsBatch := [0]
  wf := dot_S128x8192x64_S128x8192x64_S128x64x64_1_1_2_2_0_0_wf
def gather_S128x64x64_S64x2_S128x64_0_12_n_n_12_1_12811 : GatherDims S128x64x64 S64x2 S128x64 where
  offsetDims := [0]
  collapsedSliceDims := [1, 2]
  operandBatchingDims := []
  startIndicesBatchingDims := []
  startIndexMap := [1, 2]
  indexVectorDim := 1
  sliceSizes := ![128, 1, 1]
  wf := gather_S128x64x64_S64x2_S128x64_0_12_n_n_12_1_12811_wf

class Facts : Prop extends Facts₀ where

variable [Facts]
-- ==== Proof.CorrSpec.lean ====
/-
  Thresholded correlation counts of one slab, on the extended reals.

  A slab `X` has 8192 rows of 64 features. Its feature means are the column sums over 8192; the centred slab
  subtracts them; the Gram matrix of the centred slab is `gram X i j = ∑ w, centred X w i * centred X w j`; a
  covariance `c` is the Gram matrix over 8191. From a covariance: `std c i = √(c i i) + ε`,
  `corr c i j = c i j / (std c i · std c j)`, and the result at feature `i` is the number of `j` with
  `|corr c i j| > θ`, minus one.

  Two spellings of the covariance meet here: the Gram entry TIMES the rational 1/8191, and the Gram entry DIVIDED BY
  8191. They are the same extended real for every Gram entry, infinite ones included (`cov_eq_div`), so nothing
  below asks the slab to be finite. A diagonal entry taken as the row's sum against the 0/1 identity mask is that
  entry (`sum_mul_ite_eq`): a product with 0 is 0 on the extended reals, with 1 the factor itself.
-/
import Idealize.ShloMosaic.PureOps.Ideal
import Idealize.ShloMosaic.PureOps.Ideal.Laws
import Idealize.ShloMosaic.Lib.ValueIdx

noncomputable section

namespace Cert.CorrCount

open Idealize.ShloMosaic Idealize.ShloMosaic.ValueIdx

/-- The number of rows, 8192, as both programs spell it. -/
def nRows : EReal := Ideal.ofBits .f32 0x46000000#32
/-- The guard ε added to a standard deviation, as both programs spell it. -/
def eps : EReal := Ideal.ofBits .f32 0x322BCC77#32
/-- The threshold θ, as both programs spell it. -/
def theta : EReal := Ideal.ofBits .f32 0x3E99999A#32
/-- The one subtracted from a count, as both programs spell it. -/
def unit : EReal := Ideal.ofBits .f32 0x3F800000#32

/-- The mean of feature `d` over the slab's rows. -/
def mean (X : Fin 8192 → Fin 64 → EReal) (d : Fin 64) : EReal := Ideal.div (∑ w : Fin 8192, X w d) nRows

/-- The slab with each feature's mean subtracted. -/
def centred (X : Fin 8192 → Fin 64 → EReal) (w : Fin 8192) (d : Fin 64) : EReal := X w d - mean X d

/-- The Gram matrix of the centred slab. -/
def gram (X : Fin 8192 → Fin 64 → EReal) (i j : Fin 64) : EReal := ∑ w : Fin 8192, centred X w i * centred X w j

/-- The covariance: the Gram matrix times the rational 1/8191. -/
def cov (X : Fin 8192 → Fin 64 → EReal) (i j : Fin 64) : EReal := gram X i j * ((1 / 8191 : ℝ) : EReal)

/-- A feature's standard deviation plus the guard. -/
def std (c : Fin 64 → Fin 64 → EReal) (i : Fin 64) : EReal := Ideal.sqrt (c i i) + eps

/-- The correlation of two features. -/
def corr (c : Fin 64 → Fin 64 → EReal) (i j : Fin 64) : EReal := Ideal.div (c i j) (std c i * std c j)

/-- 1 where `a` exceeds the threshold, else 0. -/
def exceeds (a : EReal) : EReal := if theta < a then 1 else 0

/-- The number of features whose correlation with `i` exceeds the threshold in absolute value, minus one. -/
def count (c : Fin 64 → Fin 64 → EReal) (i : Fin 64) : EReal :=
  (∑ j : Fin 64, exceeds (max (corr c i j) (-(corr c i j)))) - unit

/-- The whole result: entry `(b, i)` is the count of feature `i` in slab `b`'s covariance. -/
def result (x : (⟨3, ![128, 8192, 64]⟩ : Shape).Idx → EReal) (j : (⟨2, ![128, 64]⟩ : Shape).Idx) : EReal :=
  count (cov fun w d => x (ix3 (j 0) w d)) (j 1)

/-- The word `8191.0` denotes the real 8191. -/
theorem ofBits_8191 : Ideal.ofBits .f32 0x45FFF800#32 = ((8191 : ℝ) : EReal) := by
  simp [Ideal.ofBits, Ideal.ieee, -EReal.coe_mul]; norm_num

/-- Dividing a Gram entry by 8191 is multiplying it by 1/8191, on every extended real. -/
theorem cov_eq_div (X : Fin 8192 → Fin 64 → EReal) (i j : Fin 64) :
    Ideal.div (gram X i j) (Ideal.ofBits .f32 0x45FFF800#32) = cov X i j := by
  rw [ofBits_8191, Ideal.div_coe (by norm_num : (8191 : ℝ) ≠ 0)]; rfl

/-- A row's sum against the identity mask is its diagonal entry. -/
theorem sum_mul_ite_eq (c : Fin 64 → EReal) (i : Fin 64) :
    ∑ j : Fin 64, c j * (if i = j then (1 : EReal) else 0) = c i := by
  rw [Finset.sum_eq_single i]
  · rw [if_pos rfl, mul_one]
  · intro j _ hj; rw [if_neg (fun h => hj h.symm), mul_zero]
  · intro h; exact absurd (Finset.mem_univ i) h

end Cert.CorrCount

end
-- ==== Proof.KernelRows.lean ====
/-
  What the kernel body leaves in its output block, as one function of its input block.

  The body walks the block's 8 slabs in a counted loop. Trip `k` loads slab `k` (all 8192 rows, all 64 features),
  computes one row of 64 numbers from it, and stores that row as row `k` of the 8 × 64 output block. So the output
  block is, row by row, the row computation applied to the matching slab: `rows x0 y` is the row computation of slab
  `y 0` read at feature `y 1`.

  The stores of all trips form a list of pieces. Each piece is a restriction of `rows x0` to its rectangle (row `k`,
  all features), by the offsets' closed forms; the pieces of the trips before `n` are built one trip at a time, so
  every one of them restricts `rows x0` by induction on `n`; and they cover the block. Reading the block back after
  those writes therefore gives `rows x0`, whatever the block held before.
-/
import proofs.«176861_j29205777613023_2_alg».proof.Proof.Gen.KernelIdeal.Frame
import Idealize.ShloMosaic.Lib.ValueIdx

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx

variable {F : FTy → Type} [FloatOps F] [Named F]

/-- The loop makes 8 trips. -/
theorem trips_eq : k0_t1_loop.trips = 8 := by decide +kernel

/-- The trip that writes row `r`. -/
abbrev tripOf (r : Fin 8) : Fin k0_t1_loop.trips := ⟨r.val, by rw [trips_eq]; exact r.isLt⟩

/-- The output block as a function of the input block: row `y 0` is the row computation of slab `y 0`. -/
def rows (x0 : Vec F S8x8192x64 .f32) (y : S8x64.Idx) : F .f32 :=
  k0_pay1 (View.ld x0 (Rect.unit (s := S8x8192x64) (k0_off1 (tripOf (y 0))) S1x8192x64.size (k0_off1_inb (tripOf (y 0))))) (ix2 0 (y 1))

/-- Trip `k` stores one piece: the row computation of slab `k`, through row `k`'s rectangle. -/
theorem tripL_eq (𝒱 : Variants) (c : Dev nD) (bd : Option 𝒱.V) (i : grid0.Coords) (arg1 : Memref sig .tc .vmem S8x8192x64 .f32) (harg1 : arg1.IsWhole)
    (arg2 : Memref sig .tc .vmem S8x64 .f32) (harg2 : arg2.IsWhole) (X : BufTy.Contents (Elt F) arg1.view.ty) (k : Fin k0_t1_loop.trips) :
    tripL_k0_t1 (F := F) 𝒱 c bd i arg1 harg1 arg2 harg2 X k
      = [⟨Rect.unit (s := S8x64) (k0_off2 k) S1x64.size (k0_off2_inb k),
          k0_pay1 (View.readAt (Elt F) arg1.view (Rect.unit (s := S8x8192x64) (k0_off1 k) S1x8192x64.size (k0_off1_inb k)).toLoadRect X)⟩] := by
  unfold tripL_k0_t1 trip_k0_t1
  rfl

/-- Row `k`'s rectangle starts at row `k`, feature 0. -/
theorem off2_row (k : Fin k0_t1_loop.trips) : k0_off2 k 0 = k.val := by rw [k0_off2_eq]; rfl
theorem off2_col (k : Fin k0_t1_loop.trips) : k0_off2 k 1 = 0 := by rw [k0_off2_eq]; rfl

/-- The row computation of a slab read at a feature depends only on which slab and which feature. -/
theorem pay_congr (x0 : Vec F S8x8192x64 .f32) (k k' : Fin k0_t1_loop.trips) (hk : k' = k) (q q' : S1x64.Idx) (hq : q' = q) :
    k0_pay1 (View.ld x0 (Rect.unit (s := S8x8192x64) (k0_off1 k) S1x8192x64.size (k0_off1_inb k))) q
      = k0_pay1 (View.ld x0 (Rect.unit (s := S8x8192x64) (k0_off1 k') S1x8192x64.size (k0_off1_inb k'))) q' := by
  subst hk; subst hq; rfl

/-- That piece restricts `rows x0`: its rectangle is row `k` with every feature, so the row of an embedded index is
    `k` and its feature the piece's own. -/
theorem piece_restricts (arg1 : Memref sig .tc .vmem S8x8192x64 .f32) (harg1 : arg1.IsWhole) (x0 : Vec F S8x8192x64 .f32)
    (k : Fin k0_t1_loop.trips) (x : (Rect.unit (s := S8x64) (k0_off2 k) S1x64.size (k0_off2_inb k)).shape.Idx) :
    k0_pay1 (View.readAt (Elt F) arg1.view (Rect.unit (s := S8x8192x64) (k0_off1 k) S1x8192x64.size (k0_off1_inb k)).toLoadRect (harg1.unread x0)) x
      = rows x0 ((Rect.unit (s := S8x64) (k0_off2 k) S1x64.size (k0_off2_inb k)).emb x) := by
  rw [View.readAt_eq_ld, harg1.read_unread]
  unfold rows
  have hx0 : (x 0).val = 0 := by have := (x 0).isLt; change (x 0).val < 1 at this; omega
  have e0 : (((Rect.unit (s := S8x64) (k0_off2 k) S1x64.size (k0_off2_inb k)).emb x) 0 : Nat) = k0_off2 k 0 + 1 * (x 0).val := rfl
  have e1 : (((Rect.unit (s := S8x64) (k0_off2 k) S1x64.size (k0_off2_inb k)).emb x) 1 : Nat) = k0_off2 k 1 + 1 * (x 1).val := rfl
  have h0 := off2_row k
  have h1 := off2_col k
  refine pay_congr x0 k _ (Fin.ext ?_) x _ (funext fun a => Fin.ext ?_)
  · show (((Rect.unit (s := S8x64) (k0_off2 k) S1x64.size (k0_off2_inb k)).emb x) 0 : Nat) = k.val
    omega
  · match a with
    | ⟨0, _⟩ => exact hx0.symm
    | ⟨1, _⟩ =>
      show (((Rect.unit (s := S8x64) (k0_off2 k) S1x64.size (k0_off2_inb k)).emb x) 1 : Nat) = (x 1).val
      omega

/-- Every piece of the trips before `n` restricts `rows x0`. -/
theorem pieces_before (𝒱 : Variants) (c : Dev nD) (bd : Option 𝒱.V) (i : grid0.Coords) (arg1 : Memref sig .tc .vmem S8x8192x64 .f32) (harg1 : arg1.IsWhole)
    (arg2 : Memref sig .tc .vmem S8x64 .f32) (harg2 : arg2.IsWhole) (x0 : Vec F S8x8192x64 .f32) :
    ∀ n : ℕ, n ≤ k0_t1_loop.trips → ∀ p ∈ pb_k0_t1 (F := F) 𝒱 c bd i arg1 harg1 arg2 harg2 (harg1.unread x0) n,
      ∀ x : p.1.shape.Idx, p.2 x = rows x0 (p.1.emb x)
  | 0, _ => fun p hp => absurd hp List.not_mem_nil
  | n + 1, hn => fun p hp x => by
    have hs := pb_k0_t1_succ (F := F) 𝒱 c bd i arg1 harg1 arg2 harg2 (harg1.unread x0) ⟨n, hn⟩
    rw [show (⟨n, hn⟩ : Fin k0_t1_loop.trips).val + 1 = n + 1 from rfl, tripL_eq] at hs
    rw [hs, List.mem_append, List.mem_singleton] at hp
    rcases hp with rfl | hp
    · exact piece_restricts arg1 harg1 x0 ⟨n, hn⟩ x
    · exact pieces_before 𝒱 c bd i arg1 harg1 arg2 harg2 x0 n (Nat.le_of_succ_le hn) p hp x

/-- THE BODY'S RESULT: whatever the output block held, after the body it reads `rows` of the input block. -/
theorem out_eq (c : Dev nD) (i : grid0.Coords) (arg1 : Memref sig .tc .vmem S8x8192x64 .f32) (harg1 : arg1.IsWhole)
    (arg2 : Memref sig .tc .vmem S8x64 .f32) (harg2 : arg2.IsWhole) (x0 : Vec F S8x8192x64 .f32) (y : S8x64.Idx) :
    out0_A_1 c i arg1 harg1 arg2 harg2 x0 y = rows x0 y := by
  have hL : (kernelRun0_A c i arg1 harg1 arg2 harg2 x0).1
      = pb_k0_t1 (F := F) Variants.none c none i arg1 harg1 arg2 harg2 (harg1.unread x0) k0_t1_loop.trips := by
    unfold kernelRun0_A; rfl
  unfold out0_A_1
  refine View.read_writes_apply_of_pieces VO0_1 VO0_1.junk (rows x0) _ ?_ y (cover0_A_1 c i arg1 harg1 arg2 harg2 x0 y)
  rw [hL]
  exact pieces_before Variants.none c none i arg1 harg1 arg2 harg2 x0 _ le_rfl

end Cert.KernelIdeal.Rows

end
-- ==== Proof.KernelRowValue.lean ====
/-
  The row computation of the kernel body, read at a feature, on the extended reals.

  The body's arithmetic on one slab `v7` (8192 rows, 64 features) is cut here into five stages, each a function of the
  stage before it: the centred slab; the covariance (the centred slab's Gram matrix times the named 1/8191); the
  identity mask (1 where row and column coincide, else 0); the standard deviations (the root of the masked row sum,
  which is the diagonal entry, plus ε); and the count (per feature, the number of correlations above θ in absolute
  value, minus one). The printed payload is the composition of these stages as written (`pay_eq`), and each stage read
  at an index is the matching function of Proof/CorrSpec.lean.
-/
import proofs.«176861_j29205777613023_2_alg».proof.Proof.Gen.KernelIdeal.Skeleton
import proofs.«176861_j29205777613023_2_alg».proof.Proof.CorrSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Cert.CorrCount

/-! ## The stages, as the body writes them -/

/-- The slab minus its feature means. -/
def cenV (v8 : FVec Ideal S8192x64 .f32) : FVec Ideal S8192x64 .f32 :=
  subf v8 (broadcastTo S8192x64
    (divf (shapeCast S1x64 (multiReduction .add [0] S64 v8 0x00000000#32 reduces_S8192x64_S64 (.inl rfl) rfl) shapeCasts_S64_S1x64)
      (broadcast S1x64 (Scalar.ofBits .f32 0x46000000#32)))
    broadcasts_S1x64_S8192x64)

/-- The Gram matrix of a centred slab times the named reciprocal. -/
def covV (c : FVec Ideal S8192x64 .f32) : FVec Ideal S64x64 .f32 :=
  mulf (matmul dot_S8192x64_S8192x64_S64x64_0_0_1_1_n_n none (truncf .bf16 c bitsLt_bf16_f32) (truncf .bf16 c bitsLt_bf16_f32)
      (constant S64x64 .f32 0x00000000#32))
    (broadcast S64x64 (Named.named κ "inv_wm1" 0x39000400#32))

/-- The identity mask. -/
def maskV : FVec Ideal S64x64 .f32 :=
  sitofp .f32 (extui 32 (cmpi .eq (iota .tc S64x64 32 [0] iota_S64x64_d0_w32) (iota .tc S64x64 32 [1] iota_S64x64_d1_w32)) natLt_1_32)

/-- The standard deviations plus the guard. -/
def stdV (cv : FVec Ideal S64x64 .f32) : FVec Ideal S64 .f32 :=
  addf (sqrt (multiReduction .add [1] S64 (mulf cv maskV) 0x00000000#32 reduces_S64x64_S64 (.inl rfl) rfl))
    (broadcast S64 (Scalar.ofBits .f32 0x322BCC77#32))

/-- The counts. -/
def outV (cv : FVec Ideal S64x64 .f32) : FVec Ideal S64 .f32 :=
  subf (multiReduction .add [1] S64
      (sitofp .f32 (extui 32 (cmpf .ogt
        (absf (divf cv (mulf (broadcastTo S64x64 (shapeCast S64x1 (stdV cv) shapeCasts_S64_S64x1) broadcasts_S64x1_S64x64)
          (broadcastTo S64x64 (shapeCast S1x64 (stdV cv) shapeCasts_S64_S1x64) broadcasts_S1x64_S64x64))))
        (broadcast S64x64 (Scalar.ofBits .f32 0x3E99999A#32))) natLt_1_32))
      0x00000000#32 reduces_S64x64_S64 (.inl rfl) rfl)
    (broadcast S64 (Scalar.ofBits .f32 0x3F800000#32))

/-- The printed payload is the stages composed. -/
theorem pay_eq (v7 : Vec Ideal S1x8192x64 .f32) :
    k0_pay1 (F := Ideal) v7
      = shapeCast S1x64 (outV (covV (cenV (shapeCast S8192x64 v7 shapeCasts_S1x8192x64_S8192x64)))) shapeCasts_S64_S1x64 := rfl

/-! ## Words read as numbers -/

/-- The 0/1 word of a decision, widened and read signed, is 1 when it holds and 0 when not. -/
theorem ofBool_toReal (b : Bool) :
    (((((BitVec.ofBool b).setWidth 32).toInt : ℤ) : ℝ) : EReal) = if b then 1 else 0 := by
  cases b
  · show (((0 : ℤ) : ℝ) : EReal) = 0
    simp
  · show (((1 : ℤ) : ℝ) : EReal) = 1
    simp

/-- Two coordinates below 64 have the same 32-bit word exactly when they are equal. -/
theorem word_eq_iff (i j : Fin 64) : (BitVec.ofNat 32 (0 * 64 + i.val) == BitVec.ofNat 32 (0 * 64 + j.val)) = decide (i = j) := by
  have hi := i.isLt
  have hj := j.isLt
  rw [Bool.eq_iff_iff, beq_iff_eq, decide_eq_true_iff]
  constructor
  · intro h
    have := congrArg BitVec.toNat h
    simp only [BitVec.toNat_ofNat] at this
    refine Fin.ext ?_
    omega
  · rintro rfl; rfl

/-- The mask at `(i, j)`. -/
theorem maskV_apply (i j : Fin 64) : maskV (ix2 i j) = if i = j then (1 : EReal) else 0 := by
  show (((((BitVec.ofBool (BitVec.ofNat 32 (0 * 64 + i.val) == BitVec.ofNat 32 (0 * 64 + j.val))).setWidth 32).toInt : ℤ) : ℝ) : EReal) = _
  rw [ofBool_toReal, word_eq_iff]
  by_cases h : i = j
  · rw [if_pos h, decide_eq_true h]; rfl
  · rw [if_neg h, decide_eq_false h]; rfl

/-! ## Two layout forms: a vector as a column, and a column repeated along rows -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The lane sums -/

/-- The sum over the rows of a slab, at feature `d`. -/
theorem colsum_apply (v8 : FVec Ideal S8192x64 .f32) (d : Fin 64) :
    multiReduction .add [0] S64 v8 0x00000000#32 reduces_S8192x64_S64 (.inl rfl) rfl (ix1 d) = ∑ w : Fin 8192, v8 (ix2 w d) := by
  refine (Ideal.multiReduction_add_single v8 0x00000000#32 reduces_S8192x64_S64 (.inl rfl) rfl (ix1 d)).trans ?_
  exact Finset.sum_congr rfl fun k _ => congrArg v8 (funext fun a => Fin.ext (by match a with | ⟨0, _⟩ => rfl | ⟨1, _⟩ => rfl))

/-- The sum over the columns of a square matrix, at row `i`. -/
theorem rowsum_apply (v : FVec Ideal S64x64 .f32) (i : Fin 64) :
    multiReduction .add [1] S64 v 0x00000000#32 reduces_S64x64_S64 (.inl rfl) rfl (ix1 i) = ∑ j : Fin 64, v (ix2 i j) := by
  refine (Ideal.multiReduction_add_single v 0x00000000#32 reduces_S64x64_S64 (.inl rfl) rfl (ix1 i)).trans ?_
  exact Finset.sum_congr rfl fun k _ => congrArg v (funext fun a => Fin.ext (by match a with | ⟨0, _⟩ => rfl | ⟨1, _⟩ => rfl))

/-! ## The centred slab -/

theorem cenV_apply (v8 : FVec Ideal S8192x64 .f32) (w : Fin 8192) (d : Fin 64) :
    cenV v8 (ix2 w d) = centred (fun w d => v8 (ix2 w d)) w d := by
  unfold cenV centred mean nRows
  refine congrArg (v8 (ix2 w d) - ·) ?_
  refine (broadcastTo_1b_ab_apply _ broadcasts_S1x64_S8192x64 w d).trans ?_
  refine congrArg (fun z => Ideal.div z (Ideal.ofBits .f32 0x46000000#32)) ?_
  refine (shapeCast_a_1a_apply _ shapeCasts_S64_S1x64 0 d).trans ?_
  exact colsum_apply v8 d

/-! ## The covariance -/

/-- The product's dimension record: both operands contracted on their row axis. -/
abbrev gramDims := dot_S8192x64_S8192x64_S64x64_0_0_1_1_n_n

theorem lhs_row (j : S64x64.Idx) (q : gramDims.contr.Idx) : (gramDims.lhsIdx j q 0).val = (q ⟨0, by decide⟩).val :=
  gramDims.lhsIdx_val_of_single rfl j q
theorem lhs_col (j : S64x64.Idx) (q : gramDims.contr.Idx) : (gramDims.lhsIdx j q 1).val = (j 0).val := by
  unfold DotDims.lhsIdx
  rw [dif_neg (show ¬(1 : Fin S8192x64.rank) ∈ gramDims.lhsBatch by decide), dif_pos (show (1 : Fin S8192x64.rank) ∈ gramDims.lhsNonContracting by decide)]
  rfl
theorem rhs_row (j : S64x64.Idx) (q : gramDims.contr.Idx) : (gramDims.rhsIdx j q 0).val = (q ⟨0, by decide⟩).val :=
  gramDims.rhsIdx_val_of_single rfl j q
theorem rhs_col (j : S64x64.Idx) (q : gramDims.contr.Idx) : (gramDims.rhsIdx j q 1).val = (j 1).val := by
  unfold DotDims.rhsIdx
  rw [dif_neg (show ¬(1 : Fin S8192x64.rank) ∈ gramDims.rhsBatch by decide), dif_pos (show (1 : Fin S8192x64.rank) ∈ gramDims.rhsNonContracting by decide)]
  rfl

/-- The matrix product of a slab with itself over the rows, into zeros, is the Gram sum; narrowing the operands changes
    nothing on the extended reals. -/
theorem gramV_apply (c : FVec Ideal S8192x64 .f32) (i j : Fin 64) :
    matmul gramDims none (truncf .bf16 c bitsLt_bf16_f32) (truncf .bf16 c bitsLt_bf16_f32) (constant S64x64 .f32 0x00000000#32) (ix2 i j)
      = ∑ w : Fin 8192, c (ix2 w i) * c (ix2 w j) := by
  refine (Ideal.matmul_constant_zero_apply gramDims none _ _ (ix2 i j)).trans ?_
  rw [← Equiv.sum_comp (ValueIdx.contrEquiv1 gramDims 8192 rfl rfl).symm]
  refine Finset.sum_congr rfl fun k _ => ?_
  have hk := ValueIdx.contrEquiv1_symm_val gramDims 8192 rfl rfl k
  have el : gramDims.lhsIdx (ix2 i j) ((ValueIdx.contrEquiv1 gramDims 8192 rfl rfl).symm k) = ix2 k i := funext fun a => Fin.ext (by
    match a with
    | ⟨0, _⟩ => exact (lhs_row _ _).trans hk
    | ⟨1, _⟩ => exact lhs_col _ _)
  have er : gramDims.rhsIdx (ix2 i j) ((ValueIdx.contrEquiv1 gramDims 8192 rfl rfl).symm k) = ix2 k j := funext fun a => Fin.ext (by
    match a with
    | ⟨0, _⟩ => exact (rhs_row _ _).trans hk
    | ⟨1, _⟩ => exact rhs_col _ _)
  rw [el, er]
  rfl

/-- The named reciprocal denotes the rational 1/8191, by the certificate's table. -/
theorem inv_wm1 : Named.named (F := Ideal) κ "inv_wm1" (φ := .f32) 0x39000400#32 = ((1 / 8191 : ℝ) : EReal) :=
  IdealRules.named_const.ideal_named_scalar _ _ _ _ rfl

theorem covV_apply (c : FVec Ideal S8192x64 .f32) (i j : Fin 64) :
    covV c (ix2 i j) = (∑ w : Fin 8192, c (ix2 w i) * c (ix2 w j)) * ((1 / 8191 : ℝ) : EReal) := by
  unfold covV
  show matmul gramDims none (truncf .bf16 c bitsLt_bf16_f32) (truncf .bf16 c bitsLt_bf16_f32) (constant S64x64 .f32 0x00000000#32) (ix2 i j)
      * Named.named (F := Ideal) κ "inv_wm1" (φ := .f32) 0x39000400#32 = _
  rw [gramV_apply, inv_wm1]

/-! ## The standard deviations -/

theorem stdV_apply (cv : FVec Ideal S64x64 .f32) (i : Fin 64) : stdV cv (ix1 i) = std (fun i j => cv (ix2 i j)) i := by
  unfold stdV std eps
  show Ideal.sqrt (multiReduction .add [1] S64 (mulf cv maskV) 0x00000000#32 reduces_S64x64_S64 (.inl rfl) rfl (ix1 i))
      + Ideal.ofBits .f32 0x322BCC77#32 = _
  rw [rowsum_apply]
  have hd : ∑ j : Fin 64, (mulf cv maskV) (ix2 i j) = cv (ix2 i i) := by
    rw [← sum_mul_ite_eq (fun j => cv (ix2 i j)) i]
    exact Finset.sum_congr rfl fun j _ => by
      show cv (ix2 i j) * maskV (ix2 i j) = _
      rw [maskV_apply]
  rw [hd]

/-! ## The counts -/

/-- The outer product of a vector with itself, as the body spells it: a column times a row. -/
theorem outer_apply (s : FVec Ideal S64 .f32) (i j : Fin 64) :
    (mulf (broadcastTo S64x64 (shapeCast S64x1 s shapeCasts_S64_S64x1) broadcasts_S64x1_S64x64)
      (broadcastTo S64x64 (shapeCast S1x64 s shapeCasts_S64_S1x64) broadcasts_S1x64_S64x64)) (ix2 i j) = s (ix1 i) * s (ix1 j) := by
  show broadcastTo S64x64 (shapeCast S64x1 s shapeCasts_S64_S64x1) broadcasts_S64x1_S64x64 (ix2 i j)
      * broadcastTo S64x64 (shapeCast S1x64 s shapeCasts_S64_S1x64) broadcasts_S1x64_S64x64 (ix2 i j) = _
  rw [broadcastTo_a1_ab_apply, broadcastTo_1b_ab_apply, shapeCast_a_a1_apply, shapeCast_a_1a_apply]

/-- The comparison against the threshold, as a 0/1 float. -/
theorem exceeds_apply (a : FVec Ideal S64x64 .f32) (i j : Fin 64) :
    (sitofp .f32 (extui 32 (cmpf .ogt a (broadcast S64x64 (Scalar.ofBits .f32 0x3E99999A#32))) natLt_1_32) : FVec Ideal S64x64 .f32) (ix2 i j)
      = exceeds (a (ix2 i j)) := by
  show (((((BitVec.ofBool (decide (Ideal.ofBits .f32 0x3E99999A#32 < a (ix2 i j)))).setWidth 32).toInt : ℤ) : ℝ) : EReal) = _
  rw [ofBool_toReal]
  unfold exceeds theta
  by_cases h : Ideal.ofBits .f32 0x3E99999A#32 < a (ix2 i j)
  · rw [decide_eq_true h, if_pos h]; rfl
  · rw [decide_eq_false h, if_neg h]; rfl

theorem outV_apply (cv : FVec Ideal S64x64 .f32) (i : Fin 64) : outV cv (ix1 i) = CorrCount.count (fun i j => cv (ix2 i j)) i := by
  unfold outV CorrCount.count CorrCount.unit
  refine congrArg (· - Ideal.ofBits .f32 0x3F800000#32) ?_
  rw [rowsum_apply]
  refine Finset.sum_congr rfl fun j _ => ?_
  rw [exceeds_apply]
  refine congrArg exceeds ?_
  show max (Ideal.div (cv (ix2 i j)) _) (-(Ideal.div (cv (ix2 i j)) _)) = _
  rw [outer_apply, stdV_apply, stdV_apply]
  rfl

/-! ## The row computation at a feature -/

/-- THE ROW: the body's row computation of a slab, at feature `q`, is the count of feature `q` in the slab's covariance. -/
theorem pay_apply (v7 : Vec Ideal S1x8192x64 .f32) (q : Fin 64) :
    k0_pay1 (F := Ideal) v7 (ix2 (0 : Fin 1) q) = CorrCount.count (cov fun w d => v7 (ix3 (0 : Fin 1) w d)) q := by
  rw [pay_eq]
  refine (shapeCast_a_1a_apply _ shapeCasts_S64_S1x64 0 q).trans ?_
  rw [outV_apply]
  refine congrArg (fun c => CorrCount.count c q) (funext fun i => funext fun j => ?_)
  rw [covV_apply]
  unfold cov gram
  refine congrArg (· * (((1 / 8191 : ℝ)) : EReal)) (Finset.sum_congr rfl fun w _ => ?_)
  rw [cenV_apply, cenV_apply]
  have hX : (fun (w : Fin 8192) (d : Fin 64) => shapeCast S8192x64 v7 shapeCasts_S1x8192x64_S8192x64 (ix2 w d))
      = fun w d => v7 (ix3 (0 : Fin 1) w d) :=
    funext fun w => funext fun d => shapeCast_1ab_ab_apply v7 _ w d
  rw [hX]

end Cert.KernelIdeal.RowValue

end
-- ==== Proof.KernelWhole.lean ====
/-
  The kernel's result array as one function of its argument.

  The grid has 16 points; point `t` stages slabs `8t … 8t + 7` of the argument (all rows, all features) and writes back
  rows `8t … 8t + 7` of the result. The body turns slab `r` of its input block into row `r` of its output block
  (Proof/KernelRows.lean), and that row at feature `q` is the count of feature `q` in the slab's covariance
  (Proof/KernelRowValue.lean). So what point `t` writes back is rows `8t … 8t + 7` of `CorrCount.result` of the argument;
  every row of the result lies in the block of the point `row / 8`; hence after the run the result array is
  `CorrCount.result` of the argument, and the argument is unchanged.
-/
import proofs.«176861_j29205777613023_2_alg».proof.Proof.Gen.KernelIdeal.Value
import proofs.«176861_j29205777613023_2_alg».proof.Proof.KernelRows
import proofs.«176861_j29205777613023_2_alg».proof.Proof.KernelRowValue
import proofs.«176861_j29205777613023_2_alg».proof.Proof.CorrSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.CorrCount

/-! ## One slab of a block -/

theorem off1_slab (k : Fin k0_t1_loop.trips) : k0_off1 k 0 = k.val := by rw [k0_off1_eq]; rfl
theorem off1_row (k : Fin k0_t1_loop.trips) : k0_off1 k 1 = 0 := by rw [k0_off1_eq]; rfl
theorem off1_col (k : Fin k0_t1_loop.trips) : k0_off1 k 2 = 0 := by rw [k0_off1_eq]; rfl

/-- The count depends only on which slab and which feature. -/
theorem count_cov_congr (x : (⟨3, ![128, 8192, 64]⟩ : Shape).Idx → EReal) (b b' : Fin 128) (hb : b = b') (q q' : Fin 64) (hq : q = q') :
    CorrCount.count (cov fun w d => x (ix3 b w d)) q = CorrCount.count (cov fun w d => x (ix3 b' w d)) q' := by
  subst hb; subst hq; rfl

/-- Row `r` of the body's output block at feature `q`: the count of feature `q` in slab `r` of the input block. -/
theorem rows_apply (x0 : Vec Ideal S8x8192x64 .f32) (r : Fin 8) (q : Fin 64) :
    Rows.rows (F := Ideal) x0 (ix2 r q) = CorrCount.count (cov fun w d => x0 (ix3 r w d)) q := by
  unfold Rows.rows
  refine (RowValue.pay_apply _ q).trans ?_
  refine congrArg (fun X => CorrCount.count (cov X) q) (funext fun w => funext fun d => ?_)
  show x0 ((Rect.unit (s := S8x8192x64) (k0_off1 (Rows.tripOf r)) S1x8192x64.size (k0_off1_inb (Rows.tripOf r))).idx (ix3 (0 : Fin 1) w d)) = x0 (ix3 r w d)
  refine congrArg x0 (funext fun a => Fin.ext ?_)
  have h0 := off1_slab (Rows.tripOf r)
  have h1 := off1_row (Rows.tripOf r)
  have h2 := off1_col (Rows.tripOf r)
  match a with
  | ⟨0, _⟩ =>
    show k0_off1 (Rows.tripOf r) 0 + 1 * 0 = r.val
    rw [h0]; rfl
  | ⟨1, _⟩ =>
    show k0_off1 (Rows.tripOf r) 1 + 1 * w.val = w.val
    omega
  | ⟨2, _⟩ =>
    show k0_off1 (Rows.tripOf r) 2 + 1 * d.val = d.val
    omega

/-- A block whose slabs are slabs `8T … 8T + 7` of an array gives, row by row, rows `8T … 8T + 7` of the array's result. -/
theorem block_eq (x : (⟨3, ![128, 8192, 64]⟩ : Shape).Idx → EReal) (blk : Vec Ideal S8x8192x64 .f32) (T : ℕ) (hT : T < 16)
    (hin : ∀ (r : Fin 8) (w : Fin 8192) (d : Fin 64), blk (ix3 r w d) = x (ix3 (⟨8 * T + r.val, by have := r.isLt; omega⟩ : Fin 128) w d))
    (y : S8x64.Idx) (k : (⟨2, ![128, 64]⟩ : Shape).Idx) (hk0 : (k 0).val = 8 * T + (y 0).val) (hk1 : (k 1).val = (y 1).val) :
    Rows.rows (F := Ideal) blk y = result x k := by
  obtain ⟨r, q, rfl⟩ : ∃ (r : Fin 8) (q : Fin 64), y = ix2 r q := ⟨y 0, y 1, eq_ix2 y⟩
  rw [rows_apply]
  unfold result
  have hX : (fun (w : Fin 8192) (d : Fin 64) => blk (ix3 r w d)) = fun w d => x (ix3 (⟨8 * T + r.val, by have := r.isLt; omega⟩ : Fin 128) w d) :=
    funext fun w => funext fun d => hin r w d
  rw [hX]
  exact count_cov_congr x _ _ (Fin.ext hk0.symm) _ _ (Fin.ext hk1.symm)

/-! ## The grid -/

variable (m : (ℓ : Loc nD τ sig) → Buf (Elt Ideal) ℓ) (ρ : Dev nD → PrngReg)

/-- The printed index maps, decided over the 16 points: point `t` stages block `(t, 0, 0)` and writes back block `(t, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- The input block at point `t`, at `x`, is the argument at slab `8t + x 0`, the same row and feature. -/
theorem iblk_apply (c : Dev nD) (t : Fin cfg0.N) (x : S8x8192x64.Idx) (k : S128x8192x64.Idx)
    (hk0 : (k 0).val = 8 * t.val + (x 0).val) (hk1 : (k 1).val = (x 1).val) (hk2 : (k 2).val = (x 2).val) :
    (iblk m c 0 t : Vec Ideal S8x8192x64 .f32) x = (V m c main_arg0 : S128x8192x64.Idx → EReal) k := by
  obtain ⟨i0, i1, i2, -, -⟩ := idx_facts t
  unfold iblk
  rw [View.read_apply]
  show V m c main_arg0 _ = V m c main_arg0 _
  congr 1
  funext a
  apply Fin.ext
  match a with
  | ⟨0, _⟩ => show win0_0.index t 0 * 8 + 1 * (x 0).val = (k 0).val; rw [i0, hk0]; omega
  | ⟨1, _⟩ => show win0_0.index t 1 * 8192 + 1 * (x 1).val = (k 1).val; rw [i1, hk1]; omega
  | ⟨2, _⟩ => show win0_0.index t 2 * 64 + 1 * (x 2).val = (k 2).val; rw [i2, hk2]; omega

/-- WHAT POINT `t` WRITES BACK is block `t` of the result of the argument as the region finds it. -/
theorem flushed_eq (c : Dev nD) (t : Fin cfg0.N) :
    (dats m 0 c).flushed 1 t = ((cfg0.win 1).blk t).view.read (Elt Ideal) (result (V m c main_arg0)) := by
  rw [flushed1_A]
  obtain ⟨-, -, -, o0, o1⟩ := idx_facts t
  have ht : t.val < 16 := by have := t.isLt; have hN : cfg0.N = 16 := N_0; omega
  funext y
  show out0_A_1 c (grid0.coords t) (ms0_0 t) (hs0_0 t) (ms0_1 t) (hs0_1 t) (iblk m c 0 t) y
      = result (V m c main_arg0) (((cfg0.win 1).blk t).view.emb y)
  refine (Rows.out_eq (F := Ideal) c (grid0.coords t) (ms0_0 t) (hs0_0 t) (ms0_1 t) (hs0_1 t) (iblk m c 0 t) y).trans ?_
  refine block_eq (V m c main_arg0) (iblk m c 0 t) t.val ht
    (fun r w d => iblk_apply m c t (ix3 r w d) (ix3 (⟨8 * t.val + r.val, by have := r.isLt; omega⟩ : Fin 128) w d) rfl rfl rfl) y _ ?_ ?_
  · show win0_1.index t 0 * 8 + 1 * (y 0).val = 8 * t.val + (y 0).val
    rw [o0]; omega
  · show win0_1.index t 1 * 64 + 1 * (y 1).val = (y 1).val
    rw [o1]; omega

/-- Every index of the result array lies in the block of the point `row / 8`. -/
theorem cover (i : S128x64.Idx) : ∃ t : Fin cfg0.N, (cfg0.win 1).flush t = true ∧ i ∈ ((cfg0.win 1).blk t).view.set := by
  have h0 : (i 0).val < 128 := (i 0).isLt
  have h1 : (i 1).val < 64 := (i 1).isLt
  have hN : cfg0.N = 16 := N_0
  have hlt : (i 0).val / 8 < cfg0.N := by omega
  obtain ⟨-, -, -, o0, o1⟩ := idx_facts ⟨(i 0).val / 8, hlt⟩
  refine ⟨⟨(i 0).val / 8, hlt⟩, flush0_1 _, ?_⟩
  show i ∈ ((View.whole main_v0).slice (win0_1.rect ⟨(i 0).val / 8, hlt⟩)).set
  rw [View.set_slice_whole, Rect.mem_set_unit]
  intro a
  match a with
  | ⟨0, _⟩ =>
    show win0_1.index ⟨(i 0).val / 8, hlt⟩ 0 * 8 ≤ (i 0).val ∧ (i 0).val < win0_1.index ⟨(i 0).val / 8, hlt⟩ 0 * 8 + 8
    rw [o0]
    show (i 0).val / 8 * 8 ≤ (i 0).val ∧ (i 0).val < (i 0).val / 8 * 8 + 8
    omega
  | ⟨1, _⟩ =>
    show win0_1.index ⟨(i 0).val / 8, hlt⟩ 1 * 64 ≤ (i 1).val ∧ (i 1).val < win0_1.index ⟨(i 0).val / 8, hlt⟩ 1 * 64 + 64
    rw [o1]
    omega

/-- THE ARRAY after the run: the result of the argument. -/
theorem final (c : Dev nD) : (dats m 0 c).arrAt 1 cfg0.N = result (m ((c : Thread nD τ).loc main_arg0)) :=
  (dats m 0 c).arrAt_eq_of_cover 1 (result (V m c main_arg0)) (fun t _ => flushed_eq m c t) cover

/-- The run, read: the result array at `CorrCount.result` of the argument, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefDiagonal.lean ====
/-
  The diagonal of the covariance, read at an index.

  The reference takes the diagonal of a [128, 64, 64] array by a gather: a table of 64 start-index pairs, row `i`
  holding `(i, i)`, names for each result column `i` the entry `(i, i)` of every slab, and the whole first axis is
  the slice. The table's two columns are the same integer chain: the position `i` as a 32-bit word, replaced by
  `i + 64` where it is negative as a signed integer. No `i < 64` is negative, so each column is `i` itself; the
  two columns sit side by side in a [64, 2] array. A gather reads a start index as a signed integer and clamps it so
  that the slice fits, here into `[0, 63]`: for `i < 64` that is `i`. So the result at `(b, i)` is the operand at
  `(b, i, i)`.
-/
import proofs.«176861_j29205777613023_2_alg».proof.Proof.Gen.ReferenceIdeal.Read
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

variable {F : FTy → Type} [FloatOps F]

/-- A position below 64 is not negative as a signed 32-bit word, so the wrap-around select keeps it. -/
theorem wrap_word (i : Fin 64) :
    Scalar.select (IntOp.cmpi .slt (BitVec.ofNat 32 i.val) 0#32) (IntOp.addi (BitVec.ofNat 32 i.val) 64#32) (BitVec.ofNat 32 i.val)
      = BitVec.ofNat 32 i.val := by
  revert i; decide

/-- The word of a position below 64, read as a signed integer, is that position. -/
theorem word_toNat (i : Fin 64) : (BitVec.ofNat 32 i.val).toInt.toNat = i.val := by
  revert i; decide

/-- The first index chain at position `i` is the word of `i`. -/
theorem wrapped_fst (i : Fin 64) : val_main_call0_v6 (F := F) (ix1 i) = BitVec.ofNat 32 i.val := by
  rw [val_main_call0_v6_apply, val_main_call0_v3_apply, val_main_call0_v5_apply, val_main_call0_v0_apply,
    val_main_call0_v2_apply, val_main_call0_v4_apply, val_main_call0_c_apply, val_main_call0_c_0_apply]
  exact wrap_word i

/-- The second index chain at position `i` is the word of `i`. -/
theorem wrapped_snd (i : Fin 64) : val_main_call0_v11 (F := F) (ix1 i) = BitVec.ofNat 32 i.val := by
  rw [val_main_call0_v11_apply, val_main_call0_v8_apply, val_main_call0_v10_apply, val_main_call0_v1_apply,
    val_main_call0_v7_apply, val_main_call0_v9_apply, val_main_call0_c_1_apply, val_main_call0_c_2_apply]
  exact wrap_word i

/-- Column 0 of the start-index table: row `i` holds `i`. The coordinate 0 on the joined axis falls in the first piece. -/
theorem table_col0 (i : Fin 64) : val_main_call0_v14 (F := F) (ix2 i (0 : Fin 2)) = BitVec.ofNat 32 i.val := by
  unfold val_main_call0_v14
  rw [concatenate_pair_apply_left (1 : Fin S64x2.rank) _ _ concatenates_S64x1_S64x1_S64x2_d1 (ix2 i (0 : Fin 2)) rfl
    (ix2 i (0 : Fin 1)) (fun b => by match b with | ⟨0, _⟩ => rfl | ⟨1, _⟩ => rfl)]
  rw [val_main_call0_v12_apply]
  exact wrapped_fst i

/-- Column 1 of the start-index table: row `i` holds `i`. The coordinate 1 on the joined axis falls in the second piece,
    at its coordinate 0. -/
theorem table_col1 (i : Fin 64) : val_main_call0_v14 (F := F) (ix2 i (1 : Fin 2)) = BitVec.ofNat 32 i.val := by
  unfold val_main_call0_v14
  rw [concatenate_pair_apply_right (1 : Fin S64x2.rank) _ _ concatenates_S64x1_S64x1_S64x2_d1 (ix2 i (1 : Fin 2)) rfl rfl
    (ix2 i (0 : Fin 1)) (fun b hb => by match b, hb with | ⟨0, _⟩, _ => rfl | ⟨1, _⟩, hb => exact absurd rfl hb) rfl]
  rw [val_main_call0_v13_apply]
  exact wrapped_snd i

/-- THE DIAGONAL READ AT `(b, i)`: the covariance stage at `(b, i, i)`. Per operand axis the gathered coordinate is
    the clamped start, plus the batching coordinate (there is no batching axis: 0), plus the offset coordinate. Axis 0
    is the one offset axis and has no start: its coordinate is `b`. Axes 1 and 2 are collapsed and indexed: their
    coordinates are the table's entries `(i, 0)` and `(i, 1)`, both `i`, read signed and clamped into `[0, 63]`. -/
theorem diag_apply (x0 : (⟨S128x8192x64, .f32⟩ : BufTy).Contents (Elt F)) (b : Fin 128) (i : Fin 64) :
    val_main_v9 (F := F) x0 (ix2 b i) = val_main_v8 (F := F) x0 (ix3 b i i) := by
  unfold val_main_v9 Host.gather
  congr 1
  funext a
  refine Fin.ext ?_
  match a with
  | ⟨0, _⟩ =>
    show gather_S128x64x64_S64x2_S128x64_0_12_n_n_12_1_12811.start (ix2 b i) (val_main_call0_v14 (F := F)) 0
      + gather_S128x64x64_S64x2_S128x64_0_12_n_n_12_1_12811.batchCoord (ix2 b i) 0
      + gather_S128x64x64_S64x2_S128x64_0_12_n_n_12_1_12811.offCoord (ix2 b i) 0 = b.val
    rw [GatherDims.batchCoord_eq_zero _ _ _ List.not_mem_nil]
    unfold GatherDims.start
    rw [dif_neg (show (0 : Fin S128x64x64.rank) ∉ gather_S128x64x64_S64x2_S128x64_0_12_n_n_12_1_12811.startIndexMap by decide)]
    unfold GatherDims.offCoord
    rw [dif_pos (show (0 : Fin S128x64x64.rank) ∈ gather_S128x64x64_S64x2_S128x64_0_12_n_n_12_1_12811.sKept by decide)]
    simp only [Nat.zero_add, Nat.add_zero]
    rfl
  | ⟨1, _⟩ =>
    show gather_S128x64x64_S64x2_S128x64_0_12_n_n_12_1_12811.start (ix2 b i) (val_main_call0_v14 (F := F)) 1
      + gather_S128x64x64_S64x2_S128x64_0_12_n_n_12_1_12811.batchCoord (ix2 b i) 1
      + gather_S128x64x64_S64x2_S128x64_0_12_n_n_12_1_12811.offCoord (ix2 b i) 1 = i.val
    rw [GatherDims.batchCoord_eq_zero _ _ _ List.not_mem_nil,
      GatherDims.offCoord_eq_zero _ _ _ (show (1 : Fin S128x64x64.rank) ∉ gather_S128x64x64_S64x2_S128x64_0_12_n_n_12_1_12811.sKept by decide)]
    simp only [Nat.add_zero]
    unfold GatherDims.start
    rw [dif_pos (show (1 : Fin S128x64x64.rank) ∈ gather_S128x64x64_S64x2_S128x64_0_12_n_n_12_1_12811.startIndexMap by decide)]
    have hsi : gather_S128x64x64_S64x2_S128x64_0_12_n_n_12_1_12811.siIdx (ix2 b i)
        ⟨List.idxOf (1 : Fin S128x64x64.rank) gather_S128x64x64_S64x2_S128x64_0_12_n_n_12_1_12811.startIndexMap,
          List.idxOf_lt_length_iff.2 (show (1 : Fin S128x64x64.rank) ∈ gather_S128x64x64_S64x2_S128x64_0_12_n_n_12_1_12811.startIndexMap by decide)⟩
        = ix2 i (0 : Fin 2) := by
      funext c; refine Fin.ext ?_
      match c with
      | ⟨0, _⟩ => rfl
      | ⟨1, _⟩ => rfl
    rw [hsi, table_col0, word_toNat]
    show min i.val (64 - 1) = i.val
    omega
  | ⟨2, _⟩ =>
    show gather_S128x64x64_S64x2_S128x64_0_12_n_n_12_1_12811.start (ix2 b i) (val_main_call0_v14 (F := F)) 2
      + gather_S128x64x64_S64x2_S128x64_0_12_n_n_12_1_12811.batchCoord (ix2 b i) 2
      + gather_S128x64x64_S64x2_S128x64_0_12_n_n_12_1_12811.offCoord (ix2 b i) 2 = i.val
    rw [GatherDims.batchCoord_eq_zero _ _ _ List.not_mem_nil,
      GatherDims.offCoord_eq_zero _ _ _ (show (2 : Fin S128x64x64.rank) ∉ gather_S128x64x64_S64x2_S128x64_0_12_n_n_12_1_12811.sKept by decide)]
    simp only [Nat.add_zero]
    unfold GatherDims.start
    rw [dif_pos (show (2 : Fin S128x64x64.rank) ∈ gather_S128x64x64_S64x2_S128x64_0_12_n_n_12_1_12811.startIndexMap by decide)]
    have hsi : gather_S128x64x64_S64x2_S128x64_0_12_n_n_12_1_12811.siIdx (ix2 b i)
        ⟨List.idxOf (2 : Fin S128x64x64.rank) gather_S128x64x64_S64x2_S128x64_0_12_n_n_12_1_12811.startIndexMap,
          List.idxOf_lt_length_iff.2 (show (2 : Fin S128x64x64.rank) ∈ gather_S128x64x64_S64x2_S128x64_0_12_n_n_12_1_12811.startIndexMap by decide)⟩
        = ix2 i (1 : Fin 2) := by
      funext c; refine Fin.ext ?_
      match c with
      | ⟨0, _⟩ => rfl
      | ⟨1, _⟩ => rfl
    rw [hsi, table_col1, word_toNat]
    show min i.val (64 - 1) = i.val
    omega

end Cert.ReferenceIdeal.RefValue

end
-- ==== Proof.RefResult.lean ====
/-
  The reference's last stage is the thresholded correlation count.

  The reference program is read one operation at a time, each at an index given by explicit coordinates: slab `b`,
  row `w`, features `d`, `i`, `j`. The column sum over the 8192 rows divided by 8192 is the mean; the argument less
  the broadcast mean is the centred slab; the batched contraction over the rows is the Gram matrix; divided by 8191
  it is the covariance (the one place where the two spellings of the covariance meet: the quotient by 8191 against
  the product with 1/8191); the gathered diagonal is the covariance at `(i, i)`; its root plus the guard is the
  standard deviation; the covariance over the product of the two broadcast deviations is the correlation; the
  comparison of its absolute value with the threshold, as a 0/1 float, is the indicator; the row sum of the
  indicators less one is the count. A broadcast reads its operand at the index with the broadcast axis dropped (or
  set to 0), which the index equations below state for each one; a sum starts from the zero word, which is 0.
-/
import proofs.«176861_j29205777613023_2_alg».proof.Proof.RefDiagonal
import proofs.«176861_j29205777613023_2_alg».proof.Proof.CorrSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo
open Cert.CorrCount

/-- Slab `b` of the argument: its 8192 rows of 64 features. -/
abbrev slab (x0 : (⟨S128x8192x64, .f32⟩ : BufTy).Contents (Elt Ideal)) (b : Fin 128) : Fin 8192 → Fin 64 → EReal :=
  fun w d => x0 (ix3 b w d)

/-! ## The mean and the centred slab -/

/-- The column sum at `(b, d)` runs over the rows `(b, k, d)`. -/
theorem idx_colsum (b : Fin 128) (d : Fin 64) (k : Fin 8192) : idx_main_v0 (ix2 b d) k = ix3 b k d :=
  funext fun a => Fin.ext (by match a with | ⟨0, _⟩ => rfl | ⟨1, _⟩ => rfl | ⟨2, _⟩ => rfl)
/-- The kept unit axis of the column sum: `(b, 0, d)` reads `(b, d)`. -/
theorem idx_keep (b : Fin 128) (u : Fin 1) (d : Fin 64) : idx_main_v1 (ix3 b u d) = ix2 b d :=
  funext fun a => Fin.ext (by match a with | ⟨0, _⟩ => rfl | ⟨1, _⟩ => rfl)
/-- The mean broadcast over the rows: `(b, w, d)` reads `(b, 0, d)`. -/
theorem idx_rows (b : Fin 128) (w : Fin 8192) (d : Fin 64) : idx_main_v4 (ix3 b w d) = ix3 b (0 : Fin 1) d :=
  funext fun a => Fin.ext (by match a with | ⟨0, _⟩ => rfl | ⟨1, _⟩ => rfl | ⟨2, _⟩ => rfl)

/-- The column sum over 8192 is the mean of feature `d` in slab `b`. -/
theorem mean_apply (x0 : (⟨S128x8192x64, .f32⟩ : BufTy).Contents (Elt Ideal)) (b : Fin 128) (d : Fin 64) :
    val_main_v3 (F := Ideal) x0 (ix3 b (0 : Fin 1) d) = mean (slab x0 b) d := by
  rw [val_main_v3_apply, val_main_v1_apply, val_main_v2_apply, val_main_cst_0_apply, idx_keep, val_main_v0_apply,
    val_main_cst_apply]
  simp only [idx_colsum, Ideal.hostDivf_def, Ideal.ofBits_def, Ideal.ofBits_zero_f32, zero_add]
  rfl

/-- The argument less the broadcast mean is the centred slab. -/
theorem centred_apply (x0 : (⟨S128x8192x64, .f32⟩ : BufTy).Contents (Elt Ideal)) (b : Fin 128) (w : Fin 8192) (d : Fin 64) :
    val_main_v5 (F := Ideal) x0 (ix3 b w d) = centred (slab x0 b) w d := by
  rw [val_main_v5_apply, val_main_v4_apply, idx_rows, mean_apply]
  rfl

/-! ## The covariance -/

/-- The contraction's left factor at `(b, i, j)`, row `k`: the centred slab at `(b, k, i)`. -/
theorem idx_left (b : Fin 128) (i j : Fin 64) (k : Fin 8192) : lidx_main_v6 (ix3 b i j) k = ix3 b k i :=
  funext fun a => Fin.ext (by match a with | ⟨0, _⟩ => rfl | ⟨1, _⟩ => rfl | ⟨2, _⟩ => rfl)
/-- The contraction's right factor at `(b, i, j)`, row `k`: the centred slab at `(b, k, j)`. -/
theorem idx_right (b : Fin 128) (i j : Fin 64) (k : Fin 8192) : ridx_main_v6 (ix3 b i j) k = ix3 b k j :=
  funext fun a => Fin.ext (by match a with | ⟨0, _⟩ => rfl | ⟨1, _⟩ => rfl | ⟨2, _⟩ => rfl)

/-- The Gram matrix of the centred slab divided by 8191 is the covariance. -/
theorem cov_apply (x0 : (⟨S128x8192x64, .f32⟩ : BufTy).Contents (Elt Ideal)) (b : Fin 128) (i j : Fin 64) :
    val_main_v8 (F := Ideal) x0 (ix3 b i j) = cov (slab x0 b) i j := by
  rw [val_main_v8_apply, val_main_v7_apply, val_main_cst_1_apply, val_main_v6_apply]
  simp only [idx_left, idx_right, centred_apply, Ideal.hostDivf_def, Ideal.ofBits_def]
  exact cov_eq_div (slab x0 b) i j

/-! ## The standard deviations and the correlation -/

/-- The deviations as a column: `(b, i, 0)` reads `(b, i)`. -/
theorem idx_col (b : Fin 128) (i : Fin 64) (u : Fin 1) : idx_main_v13 (ix3 b i u) = ix2 b i :=
  funext fun a => Fin.ext (by match a with | ⟨0, _⟩ => rfl | ⟨1, _⟩ => rfl)
/-- The deviations as a row: `(b, 0, j)` reads `(b, j)`. -/
theorem idx_row (b : Fin 128) (u : Fin 1) (j : Fin 64) : idx_main_v14 (ix3 b u j) = ix2 b j :=
  funext fun a => Fin.ext (by match a with | ⟨0, _⟩ => rfl | ⟨1, _⟩ => rfl)
/-- The column broadcast along the last axis: `(b, i, j)` reads `(b, i, 0)`. -/
theorem idx_col_bcast (b : Fin 128) (i j : Fin 64) : idx_main_v15 (ix3 b i j) = ix3 b i (0 : Fin 1) :=
  funext fun a => Fin.ext (by match a with | ⟨0, _⟩ => rfl | ⟨1, _⟩ => rfl | ⟨2, _⟩ => rfl)
/-- The row broadcast along the middle axis: `(b, i, j)` reads `(b, 0, j)`. -/
theorem idx_row_bcast (b : Fin 128) (i j : Fin 64) : idx_main_v16 (ix3 b i j) = ix3 b (0 : Fin 1) j :=
  funext fun a => Fin.ext (by match a with | ⟨0, _⟩ => rfl | ⟨1, _⟩ => rfl | ⟨2, _⟩ => rfl)

/-- The root of the covariance's diagonal entry plus the guard is the standard deviation. -/
theorem std_apply (x0 : (⟨S128x8192x64, .f32⟩ : BufTy).Contents (Elt Ideal)) (b : Fin 128) (i : Fin 64) :
    val_main_v12 (F := Ideal) x0 (ix2 b i) = std (cov (slab x0 b)) i := by
  rw [val_main_v12_apply, val_main_v10_apply, val_main_v11_apply, val_main_cst_2_apply, diag_apply, cov_apply]
  rfl

/-- The covariance over the product of the two deviations is the correlation. -/
theorem corr_apply (x0 : (⟨S128x8192x64, .f32⟩ : BufTy).Contents (Elt Ideal)) (b : Fin 128) (i j : Fin 64) :
    val_main_v18 (F := Ideal) x0 (ix3 b i j) = corr (cov (slab x0 b)) i j := by
  rw [val_main_v18_apply, val_main_v17_apply, val_main_v15_apply, val_main_v16_apply, idx_col_bcast, idx_row_bcast,
    val_main_v13_apply, val_main_v14_apply, idx_col, idx_row, std_apply, std_apply, cov_apply]
  rfl

/-! ## The indicator and the count -/

/-- The one-bit word of a strict comparison, converted to a float, is the comparison's 0/1 indicator. -/
theorem indicator_word (a θ : EReal) :
    FloatOps.uitofp (F := Ideal) .f32 (FloatOps.cmpf (F := Ideal) (φ := .f32) .ogt a θ) = if θ < a then 1 else 0 := by
  show (((BitVec.ofBool (decide (θ < a))).toNat : ℝ) : EReal) = _
  by_cases h : θ < a
  · rw [if_pos h, decide_eq_true h]; simp
  · rw [if_neg h, decide_eq_false h]; simp

/-- The converted comparison of the correlation's absolute value with the threshold is the indicator. -/
theorem exceeds_apply (x0 : (⟨S128x8192x64, .f32⟩ : BufTy).Contents (Elt Ideal)) (b : Fin 128) (i j : Fin 64) :
    val_main_v22 (F := Ideal) x0 (ix3 b i j)
      = exceeds (max (corr (cov (slab x0 b)) i j) (-(corr (cov (slab x0 b)) i j))) := by
  rw [val_main_v22_apply, val_main_v21_apply, val_main_v20_apply, val_main_cst_3_apply, val_main_v19_apply, corr_apply,
    indicator_word]
  rfl

/-- The row sum at `(b, i)` runs over the entries `(b, i, k)`. -/
theorem idx_rowsum (b : Fin 128) (i : Fin 64) (k : Fin 64) : idx_main_v23 (ix2 b i) k = ix3 b i k :=
  funext fun a => Fin.ext (by match a with | ⟨0, _⟩ => rfl | ⟨1, _⟩ => rfl | ⟨2, _⟩ => rfl)

/-- The row sum of the indicators less one is the count. -/
theorem count_apply (x0 : (⟨S128x8192x64, .f32⟩ : BufTy).Contents (Elt Ideal)) (b : Fin 128) (i : Fin 64) :
    val_main_v25 (F := Ideal) x0 (ix2 b i) = count (cov (slab x0 b)) i := by
  rw [val_main_v25_apply, val_main_v24_apply, val_main_cst_5_apply, val_main_v23_apply, val_main_cst_4_apply]
  simp only [idx_rowsum, exceeds_apply, Ideal.subf_def, Ideal.ofBits_def, Ideal.ofBits_zero_f32, zero_add]
  rfl

/-- THE REFERENCE'S RESULT IS THE SPECIFICATION: at every `(b, i)` the last stage is the count of feature `i` in the
    covariance of slab `b`. -/
theorem reference_eq_result (x0 : (⟨S128x8192x64, .f32⟩ : BufTy).Contents (Elt Ideal)) :
    val_main_v25 (F := Ideal) x0 = Cert.CorrCount.result x0 := by
  funext i
  obtain ⟨b, q, rfl⟩ : ∃ (b : Fin 128) (q : Fin 64), i = ix2 b q := ⟨i 0, i 1, eq_ix2 i⟩
  exact count_apply x0 b q

end Cert.ReferenceIdeal.RefValue

end
-- ==== Proof.lean ====
/-
  Thresholded correlation counts: a blocked kernel against its whole-array reference, on the extended reals.

  The argument `x` has 128 slabs of 8192 rows and 64 features. Both programs, per slab: centre the slab over its rows,
  form the Gram matrix of the centred slab, scale it to a covariance, take `std i = √(cov i i) + ε`, the correlations
  `cov i j / (std i · std j)`, and return per feature the number of correlations above θ in absolute value, minus one.

  The kernel walks the slabs 8 at a time over a grid of 16 points and, inside a point, one slab per loop trip; it
  narrows the centred slab before the matrix product, takes the diagonal as a masked row sum, and scales the Gram
  matrix by the NAMED reciprocal `inv_wm1`, which denotes the rational 1/8191. The reference works on the whole array,
  divides the Gram matrix by 8191 and takes the diagonal by a gather. On the extended reals narrowing is the identity,
  a product with 0 is 0, and dividing by 8191 is multiplying by 1/8191 whatever the dividend, so both results are
  `Cert.CorrCount.result x` (Proof/CorrSpec.lean) index by index: the kernel's by Proof/KernelRows.lean (the loop's
  rows), Proof/KernelRowValue.lean (one row) and Proof/KernelWhole.lean (the grid); the reference's by
  Proof/RefDiagonal.lean (the gather) and Proof/RefResult.lean. No step uses that the argument is finite.

  `preserves` is the one name's statement: the certificate's table gives `inv_wm1` the value 1/8191.
-/
import proofs.«176861_j29205777613023_2_alg».proof.Defs
import proofs.«176861_j29205777613023_2_alg».proof.Proof.Gen.Kernel
import proofs.«176861_j29205777613023_2_alg».proof.Proof.Gen.Kernel.Skeleton
import proofs.«176861_j29205777613023_2_alg».proof.Proof.Gen.Kernel.Loops
import proofs.«176861_j29205777613023_2_alg».proof.Proof.Gen.Kernel.Launch
import proofs.«176861_j29205777613023_2_alg».proof.Proof.Gen.Kernel.Points
import proofs.«176861_j29205777613023_2_alg».proof.Proof.Gen.Kernel.Frame
import proofs.«176861_j29205777613023_2_alg».proof.Proof.Gen.KernelIdeal
import proofs.«176861_j29205777613023_2_alg».proof.Proof.Gen.KernelIdeal.Skeleton
import proofs.«176861_j29205777613023_2_alg».proof.Proof.Gen.KernelIdeal.Loops
import proofs.«176861_j29205777613023_2_alg».proof.Proof.Gen.KernelIdeal.Launch
import proofs.«176861_j29205777613023_2_alg».proof.Proof.Gen.KernelIdeal.Points
import proofs.«176861_j29205777613023_2_alg».proof.Proof.Gen.KernelIdeal.Frame
import proofs.«176861_j29205777613023_2_alg».proof.Proof.Gen.ReferenceIdeal
import proofs.«176861_j29205777613023_2_alg».proof.Proof.Gen.Pre_finite_inputs
import proofs.«176861_j29205777613023_2_alg».proof.Proof.Gen.KernelIdeal.Value
import proofs.«176861_j29205777613023_2_alg».proof.Proof.Gen.ReferenceIdeal.Run
import proofs.«176861_j29205777613023_2_alg».proof.Proof.Gen.ReferenceIdeal.Read
import proofs.«176861_j29205777613023_2_alg».proof.Proof.CorrSpec
import proofs.«176861_j29205777613023_2_alg».proof.Proof.KernelWhole
import proofs.«176861_j29205777613023_2_alg».proof.Proof.RefResult
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel [Cert.Pre_finite_inputs.Facts] : Cert.frame_Kernel (hKernel := Cert.Kernel.Gen.facts) :=
  fun m ρ _ => Cert.Kernel.Gen.frame m ρ

/-- So does the kernel read on the extended reals. -/
theorem frame_kernelIdeal [Cert.Pre_finite_inputs.Facts] : Cert.frame_KernelIdeal (hKernelIdeal := Cert.KernelIdeal.Gen.facts) :=
  fun m ρ _ => Cert.KernelIdeal.Gen.frame m ρ

/-- The reference runs and leaves its argument unchanged: its run with the result dropped. -/
theorem frame_referenceIdeal [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- The one name: the table gives `inv_wm1` the rational 1/8191. -/
theorem preserves : Cert.preserves_Kernel_KernelIdeal :=
  IdealRules.named_const.statement Cert.KernelIdeal.κ "inv_wm1" .f32 0x39000400#32 ((1 / 8191 : ℝ) : EReal) rfl

/-- From memories that agree on the argument both programs end with the result array at `CorrCount.result` of it. -/
theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨fun c => Cert.CorrCount.result (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v25_eq, Cert.ReferenceIdeal.RefValue.reference_eq_result, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
